-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 91
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .bf16⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .bf16⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x64, .bf16⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .bf16⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .bf16⟩
  | .local _ .vmem, ⟨9, _⟩ => ⟨S10000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .bf16 = 32 ∨ (Rect.block (s := S100000x64) S10000x64.size (cc1_transform_2 i) (hinb1_2 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Whole.lean ====
/-
  The program's run, with what every buffer ends holding.

  The program is eight segments in a row: three stretches of host operations, the first matrix-product region, two more stretches,
  the second region, and a last stretch. Each boundary between segments has a name for what every buffer of the core holds there
  (the generated fold `W0 … W8`: a stretch's operations applied in order, a region's arrays at what its write-backs leave). Run from
  any memory with zero counters, every weakly fair execution terminates, nothing faults, and every unscoped buffer of every core
  ends at the last boundary's contents `W8`. The frame claim keeps only the six argument buffers of this; the value claim also needs
  the result buffer, so the run is stated here with all of them.
-/
import proofs.«116797_j44358422233325_2_alg».proof.Proof.Gen.KernelIdeal.Frame

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain definitions in a
-- metavariable's type
set_option backward.isDefEq.respectTransparency.types false in
/-- Every weakly fair execution terminates without a fault, and every unscoped buffer `b` of core `c` ends at `W8 m ρ c b`:
    the launch over the eight segments, the thread states chaining boundary to boundary, the last one read against the final
    state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own, and no core takes a ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      -- each segment is entered from exactly what the one before leaves; the last leaves the buffers, the register and the tally
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- what the launch deals to a core is its unscoped buffers at the launch memory, its register, and an empty tally
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      -- holding every unscoped buffer whole beside the final state fixes the state's memory there
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Whole

end
-- ==== Proof.Stages.lean ====
/-
  The graph convolution's host arithmetic, stage by stage.

  Around its two matrix products the program is the same sequence of array operations on both sides of the claim. From the edge list
  `e` (two rows of 1.6 million node numbers: sources and targets) it forms the two endpoint lists with one self loop per node
  appended (`src`, `dst`: 1.7 million entries each), the degree of every node (a scatter-add of ones over the targets), its inverse
  square root where positive (`dinv`), and the weight of every edge, `dinv[src] · dinv[dst]` (`wts`) — a gather wraps a negative
  index around once (`wrap`) and takes indices as a column (`col`). One layer then takes a feature array `h` (one row per node),
  gathers row `src` for every edge, scales it by the edge's weight, scatter-adds it into row `dst`, and adds the bias row
  (`agg128`, `agg64` for the two widths); between the layers negative entries are set to zero (`relu`). The whole network is
  `agg64 (P₂ (relu (agg128 (P₁ x W₁) e b₁)) W₂) e b₂` for whichever two matrix products `P₁`, `P₂` a program uses (`gcn`).

  Every function here is the printed operations themselves, composed; none is opened by the proof.
-/
import proofs.«116797_j44358422233325_2_alg».proof.Proof.Gen.KernelIdeal
import Idealize.ShloMosaic.PureOps.Ideal

noncomputable section

namespace Cert.KernelIdeal.Stages

open Idealize.ShloMosaic Cert.KernelIdeal Cert.KernelIdeal.Gen

variable {F : FTy → Type} [FloatOps F]

/-- Edge sources, then every node once. -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Edge targets, then every node once. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end: add the node count once. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- A list of node numbers as a one-column array of start indices. -/
def col (v : (⟨S1700000, .i32⟩ : BufTy).Contents (Elt F)) : (⟨S1700000x1, .i32⟩ : BufTy).Contents (Elt F) :=
  broadcastInDim S1700000x1 ![0] bcast_S1700000_S1700000x1_0 v

/-- Every node's degree, self loop included: ones scatter-added over the targets. -/
def deg (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (col (dst e)) (broadcastInDim S1700000 ![] bcast_S_S1700000 (constant S_ .f32 0x3F800000#32))

/-- The degree's inverse square root where the degree is positive, zero elsewhere. -/
def dinv (e : (⟨S2x1600000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- Every edge's weight: the product of its two endpoints' inverse root degrees. -/
def wts (e : (⟨S2x1600000, .i32⟩ : BufTy).Contents (Elt F)) : (⟨S1700000, .f32⟩ : BufTy).Contents (Elt F) :=
  mulf (Host.gather gather_S100000_S1700000x1_S1700000_n_0_n_n_0_1_1 (dinv e) (col (wrap (src e)))) (Host.gather gather_S100000_S1700000x1_S1700000_n_0_n_n_0_1_1 (dinv e) (col (wrap (dst e))))

/-- One layer's aggregation at width 128: for every edge the source's row, scaled by the edge's weight, added into the target's row;
    then the bias on every row. -/
def agg128 (h : (⟨S100000x128, .f32⟩ : BufTy).Contents (Elt F)) (e : (⟨S2x1600000, .i32⟩ : BufTy).Contents (Elt F))
    (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (col (dst e)) (mulf (Host.gather gather_S100000x128_S1700000x1_S1700000x128_1_0_n_n_0_1_1128 h (col (wrap (src e)))) (broadcastInDim S1700000x128 ![0, 1] bcast_S1700000x1_S1700000x128_0_1 (broadcastInDim S1700000x1 ![0] bcast_S1700000_S1700000x1_0 (wts e))))) (broadcastInDim S100000x128 ![0, 1] bcast_S1x128_S100000x128_0_1 (broadcastInDim S1x128 ![1] bcast_S128_S1x128_1 b))

/-- The same aggregation when the feature array is stored at half precision: the gathered rows are widened to single precision before
    they are scaled. -/
def agg128h (h : (⟨S100000x128, .bf16⟩ : BufTy).Contents (Elt F)) (e : (⟨S2x1600000, .i32⟩ : BufTy).Contents (Elt F))
    (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (col (dst e)) (mulf (extf .f32 (Host.gather gather_S100000x128_S1700000x1_S1700000x128_1_0_n_n_0_1_1128 h (col (wrap (src e)))) bitsLt_bf16_f32) (broadcastInDim S1700000x128 ![0, 1] bcast_S1700000x1_S1700000x128_0_1 (broadcastInDim S1700000x1 ![0] bcast_S1700000_S1700000x1_0 (wts e))))) (broadcastInDim S100000x128 ![0, 1] bcast_S1x128_S100000x128_0_1 (broadcastInDim S1x128 ![1] bcast_S128_S1x128_1 b))

/-- Negative entries to zero. -/
def relu (z : (⟨S100000x128, .f32⟩ : BufTy).Contents (Elt F)) : (⟨S100000x128, .f32⟩ : BufTy).Contents (Elt F) :=
  maximumf z (broadcastInDim S100000x128 ![] bcast_S_S100000x128 (constant S_ .f32 0x00000000#32))

/-- The aggregation at width 64. -/
def agg64 (h : (⟨S100000x64, .f32⟩ : BufTy).Contents (Elt F)) (e : (⟨S2x1600000, .i32⟩ : BufTy).Contents (Elt F))
    (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (col (dst e)) (mulf (Host.gather gather_S100000x64_S1700000x1_S1700000x64_1_0_n_n_0_1_164 h (col (wrap (src e)))) (broadcastInDim S1700000x64 ![0, 1] bcast_S1700000x1_S1700000x64_0_1 (broadcastInDim S1700000x1 ![0] bcast_S1700000_S1700000x1_0 (wts e))))) (broadcastInDim S100000x64 ![0, 1] bcast_S1x64_S100000x64_0_1 (broadcastInDim S1x64 ![1] bcast_S64_S1x64_1 b))

/-- The width-64 aggregation of a feature array stored at half precision. -/
def agg64h (h : (⟨S100000x64, .bf16⟩ : BufTy).Contents (Elt F)) (e : (⟨S2x1600000, .i32⟩ : BufTy).Contents (Elt F))
    (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (col (dst e)) (mulf (extf .f32 (Host.gather gather_S100000x64_S1700000x1_S1700000x64_1_0_n_n_0_1_164 h (col (wrap (src e)))) bitsLt_bf16_f32) (broadcastInDim S1700000x64 ![0, 1] bcast_S1700000x1_S1700000x64_0_1 (broadcastInDim S1700000x1 ![0] bcast_S1700000_S1700000x1_0 (wts e))))) (broadcastInDim S100000x64 ![0, 1] bcast_S1x64_S100000x64_0_1 (broadcastInDim S1x64 ![1] bcast_S64_S1x64_1 b))

/-- Over the extended reals widening is the identity, so the half-precision aggregations are the plain ones. -/
theorem agg128h_eq (h : S100000x128.Idx → EReal) (e : (⟨S2x1600000, .i32⟩ : BufTy).Contents (Elt Ideal))
    (b : (⟨S128, .f32⟩ : BufTy).Contents (Elt Ideal)) : agg128h (F := Ideal) h e b = agg128 (F := Ideal) h e b := rfl
theorem agg64h_eq (h : S100000x64.Idx → EReal) (e : (⟨S2x1600000, .i32⟩ : BufTy).Contents (Elt Ideal))
    (b : (⟨S64, .f32⟩ : BufTy).Contents (Elt Ideal)) : agg64h (F := Ideal) h e b = agg64 (F := Ideal) h e b := rfl

/-- The two-layer network over two matrix products `P₁`, `P₂`. -/
def gcn
    (P₁ : (⟨S100000x128, .f32⟩ : BufTy).Contents (Elt F) → (⟨S128x128, .f32⟩ : BufTy).Contents (Elt F) → (⟨S100000x128, .f32⟩ : BufTy).Contents (Elt F))
    (P₂ : (⟨S100000x128, .f32⟩ : BufTy).Contents (Elt F) → (⟨S128x64, .f32⟩ : BufTy).Contents (Elt F) → (⟨S100000x64, .f32⟩ : BufTy).Contents (Elt F))
    (x : (⟨S100000x128, .f32⟩ : BufTy).Contents (Elt F)) (e : (⟨S2x1600000, .i32⟩ : BufTy).Contents (Elt F))
    (W₁ : (⟨S128x128, .f32⟩ : BufTy).Contents (Elt F)) (b₁ : (⟨S128, .f32⟩ : BufTy).Contents (Elt F))
    (W₂ : (⟨S128x64, .f32⟩ : BufTy).Contents (Elt F)) (b₂ : (⟨S64, .f32⟩ : BufTy).Contents (Elt F)) :
    (⟨S100000x64, .f32⟩ : BufTy).Contents (Elt F) :=
  agg64 (P₂ (relu (agg128 (P₁ x W₁) e b₁)) W₂) e b₂

end Cert.KernelIdeal.Stages

end
-- ==== Proof.Lower.lean ====
/-
  What the buffers hold when the first region is entered.

  Three stretches of host operations run before the first matrix product. They leave the two endpoint lists and the edge weights
  — each the stage function of the edge-list argument — and they write none of the six argument buffers. A buffer no operation of a
  stretch writes holds after the stretch what it held before it; that one fact, applied stretch by stretch, carries every buffer back
  to the point where it was last written.
-/
import proofs.«116797_j44358422233325_2_alg».proof.Proof.Gen.KernelIdeal.Frame
import proofs.«116797_j44358422233325_2_alg».proof.Proof.Stages
import Idealize.ShloMosaic.Lib.StableHlo.Run

noncomputable section

namespace Cert.KernelIdeal.Fold

open Idealize.ShloMosaic Idealize.ShloMosaic.TcCoe Idealize.SL.Sem Idealize.ShloMosaic.StableHlo
open Cert.KernelIdeal Cert.KernelIdeal.Gen

/-- Closes `after ops V b = V b` for a stretch `ops` none of whose operations writes the buffer `b`: each operation writes one
    named buffer, and that buffer is another one. -/
macro "untouched_by " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg) (c : Dev nD)

/-! ## The arguments, untouched by the three stretches -/

theorem W3_arg0 : W3 m ρ c (Proc.devRef .tc main_arg0) = m ((c : Thread nD τ).loc main_arg0) :=
  calc W3 m ρ c (Proc.devRef .tc main_arg0)
    _ = W2 m ρ c (Proc.devRef .tc main_arg0) := by untouched_by hostOps0_2
    _ = W1 m ρ c (Proc.devRef .tc main_arg0) := by untouched_by hostOps0_1
    _ = W0 m ρ c (Proc.devRef .tc main_arg0) := by untouched_by hostOps0
    _ = m ((c : Thread nD τ).loc main_arg0) := rfl
theorem W3_arg2 : W3 m ρ c (Proc.devRef .tc main_arg2) = m ((c : Thread nD τ).loc main_arg2) :=
  calc W3 m ρ c (Proc.devRef .tc main_arg2)
    _ = W2 m ρ c (Proc.devRef .tc main_arg2) := by untouched_by hostOps0_2
    _ = W1 m ρ c (Proc.devRef .tc main_arg2) := by untouched_by hostOps0_1
    _ = W0 m ρ c (Proc.devRef .tc main_arg2) := by untouched_by hostOps0
    _ = m ((c : Thread nD τ).loc main_arg2) := rfl
theorem W3_arg3 : W3 m ρ c (Proc.devRef .tc main_arg3) = m ((c : Thread nD τ).loc main_arg3) :=
  calc W3 m ρ c (Proc.devRef .tc main_arg3)
    _ = W2 m ρ c (Proc.devRef .tc main_arg3) := by untouched_by hostOps0_2
    _ = W1 m ρ c (Proc.devRef .tc main_arg3) := by untouched_by hostOps0_1
    _ = W0 m ρ c (Proc.devRef .tc main_arg3) := by untouched_by hostOps0
    _ = m ((c : Thread nD τ).loc main_arg3) := rfl
theorem W3_arg4 : W3 m ρ c (Proc.devRef .tc main_arg4) = m ((c : Thread nD τ).loc main_arg4) :=
  calc W3 m ρ c (Proc.devRef .tc main_arg4)
    _ = W2 m ρ c (Proc.devRef .tc main_arg4) := by untouched_by hostOps0_2
    _ = W1 m ρ c (Proc.devRef .tc main_arg4) := by untouched_by hostOps0_1
    _ = W0 m ρ c (Proc.devRef .tc main_arg4) := by untouched_by hostOps0
    _ = m ((c : Thread nD τ).loc main_arg4) := rfl
theorem W3_arg5 : W3 m ρ c (Proc.devRef .tc main_arg5) = m ((c : Thread nD τ).loc main_arg5) :=
  calc W3 m ρ c (Proc.devRef .tc main_arg5)
    _ = W2 m ρ c (Proc.devRef .tc main_arg5) := by untouched_by hostOps0_2
    _ = W1 m ρ c (Proc.devRef .tc main_arg5) := by untouched_by hostOps0_1
    _ = W0 m ρ c (Proc.devRef .tc main_arg5) := by untouched_by hostOps0
    _ = m ((c : Thread nD τ).loc main_arg5) := rfl

/-! ## The endpoint lists and the edge weights -/

/-- The source list is written by the first stretch and by no later one. -/
theorem W3_src : W3 m ρ c (Proc.devRef .tc main_v5) = Stages.src (m ((c : Thread nD τ).loc main_arg1)) :=
  calc W3 m ρ c (Proc.devRef .tc main_v5)
    _ = W2 m ρ c (Proc.devRef .tc main_v5) := by untouched_by hostOps0_2
    _ = W1 m ρ c (Proc.devRef .tc main_v5) := by untouched_by hostOps0_1
    _ = Stages.src (m ((c : Thread nD τ).loc main_arg1)) := by
          show StableHlo.after hostOps0 (W0 m ρ c) (Proc.devRef .tc main_v5) = _
          after_results
          rfl

/-- The target list likewise. -/
theorem W3_dst : W3 m ρ c (Proc.devRef .tc main_v6) = Stages.dst (m ((c : Thread nD τ).loc main_arg1)) :=
  calc W3 m ρ c (Proc.devRef .tc main_v6)
    _ = W2 m ρ c (Proc.devRef .tc main_v6) := by untouched_by hostOps0_2
    _ = W1 m ρ c (Proc.devRef .tc main_v6) := by untouched_by hostOps0_1
    _ = Stages.dst (m ((c : Thread nD τ).loc main_arg1)) := by
          show StableHlo.after hostOps0 (W0 m ρ c) (Proc.devRef .tc main_v6) = _
          after_results
          rfl

/-- The edge weights: the last line of the third stretch, over what the first two computed. -/
theorem W3_wts : W3 m ρ c (Proc.devRef .tc main_v29) = Stages.wts (m ((c : Thread nD τ).loc main_arg1)) := by
  show StableHlo.after hostOps0_2 (StableHlo.after hostOps0_1 (StableHlo.after hostOps0 (W0 m ρ c))) (Proc.devRef .tc main_v29) = _
  after_results_simp
  rfl

end Cert.KernelIdeal.Fold

end
-- ==== Proof.Middle.lean ====
/-
  From the first region to the result, for any float arithmetic.

  After the first region two stretches of host operations turn its output array into the hidden feature array — gather the source
  row of every edge from the half-precision array, widen it, scale it by the edge's weight, scatter-add into the target's row, add the
  bias, then set negative entries to zero —; after the second region one last stretch aggregates that region's output array the same
  way and adds the second bias. A buffer a stretch does not write, or a region does not use as one of its arrays, keeps its contents,
  so the endpoint lists, the edge weights and the arguments reach each stage as they were computed before the first region. All of this
  is bookkeeping over the printed operations and holds whatever the float arithmetic is; the two regions' output arrays stay unread here.
-/
import proofs.«116797_j44358422233325_2_alg».proof.Proof.Lower

noncomputable section

namespace Cert.KernelIdeal.Fold

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

-- The contents at a region's exit are a fold over everything before it. Every fact used about them below is one of the two
-- generated equations (an array of the region; any other buffer), so the fold is never opened.
attribute [local irreducible] W4 W7

/-! ## At the first region's exit -/

theorem W4_src : W4 m ρ c (Proc.devRef .tc main_v5) = Stages.src (m ((c : Thread nD τ).loc main_arg1)) :=
  (W4_of_ne m ρ c main_v5 (by decide)).trans (W3_src m ρ c)
theorem W4_dst : W4 m ρ c (Proc.devRef .tc main_v6) = Stages.dst (m ((c : Thread nD τ).loc main_arg1)) :=
  (W4_of_ne m ρ c main_v6 (by decide)).trans (W3_dst m ρ c)
theorem W4_wts : W4 m ρ c (Proc.devRef .tc main_v29) = Stages.wts (m ((c : Thread nD τ).loc main_arg1)) :=
  (W4_of_ne m ρ c main_v29 (by decide)).trans (W3_wts m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## At the second region's entry -/

/-- Before the relu: the first layer's aggregation of the first region's output array. -/
theorem W5_agg : W5 m ρ c (Proc.devRef .tc main_v47)
    = Stages.agg128h (W4 m ρ c (Proc.devRef .tc main_v30)) (m ((c : Thread nD τ).loc main_arg1)) (m ((c : Thread nD τ).loc main_arg3)) := by
  show StableHlo.after hostOps1 (W4 m ρ c) (Proc.devRef .tc main_v47) = _
  after_results_simp
  rw [W4_src, W4_dst, W4_wts, W4_arg3]
  rfl

/-- The hidden feature array: that aggregation with its negative entries set to zero. -/
theorem W6_hidden : W6 m ρ c (Proc.devRef .tc main_v48)
    = Stages.relu (Stages.agg128h (W4 m ρ c (Proc.devRef .tc main_v30)) (m ((c : Thread nD τ).loc main_arg1)) (m ((c : Thread nD τ).loc main_arg3))) := by
  have h : W6 m ρ c (Proc.devRef .tc main_v48) = Stages.relu (W5 m ρ c (Proc.devRef .tc main_v47)) := by
    show StableHlo.after hostOps1_1 (W5 m ρ c) (Proc.devRef .tc main_v48) = _
    after_results_simp
    generalize W5 m ρ c (Proc.devRef .tc main_v47) = z
    rfl
  rw [h, W5_agg]

theorem W6_src : W6 m ρ c (Proc.devRef .tc main_v5) = Stages.src (m ((c : Thread nD τ).loc main_arg1)) :=
  calc W6 m ρ c (Proc.devRef .tc main_v5)
    _ = W5 m ρ c (Proc.devRef .tc main_v5) := by untouched_by hostOps1_1
    _ = W4 m ρ c (Proc.devRef .tc main_v5) := by untouched_by hostOps1
    _ = _ := W4_src m ρ c
theorem W6_dst : W6 m ρ c (Proc.devRef .tc main_v6) = Stages.dst (m ((c : Thread nD τ).loc main_arg1)) :=
  calc W6 m ρ c (Proc.devRef .tc main_v6)
    _ = W5 m ρ c (Proc.devRef .tc main_v6) := by untouched_by hostOps1_1
    _ = W4 m ρ c (Proc.devRef .tc main_v6) := by untouched_by hostOps1
    _ = _ := W4_dst m ρ c
theorem W6_wts : W6 m ρ c (Proc.devRef .tc main_v29) = Stages.wts (m ((c : Thread nD τ).loc main_arg1)) :=
  calc W6 m ρ c (Proc.devRef .tc main_v29)
    _ = W5 m ρ c (Proc.devRef .tc main_v29) := by untouched_by hostOps1_1
    _ = W4 m ρ c (Proc.devRef .tc main_v29) := by untouched_by hostOps1
    _ = _ := W4_wts m ρ c
theorem W6_arg4 : W6 m ρ c (Proc.devRef .tc main_arg4) = m ((c : Thread nD τ).loc main_arg4) :=
  calc W6 m ρ c (Proc.devRef .tc main_arg4)
    _ = W5 m ρ c (Proc.devRef .tc main_arg4) := by untouched_by hostOps1_1
    _ = W4 m ρ c (Proc.devRef .tc main_arg4) := by untouched_by hostOps1
    _ = _ := W4_arg4 m ρ c
theorem W6_arg5 : W6 m ρ c (Proc.devRef .tc main_arg5) = m ((c : Thread nD τ).loc main_arg5) :=
  calc W6 m ρ c (Proc.devRef .tc main_arg5)
    _ = W5 m ρ c (Proc.devRef .tc main_arg5) := by untouched_by hostOps1_1
    _ = W4 m ρ c (Proc.devRef .tc main_arg5) := by untouched_by hostOps1
    _ = _ := W4_arg5 m ρ c

/-! ## At the second region's exit, and the result -/

theorem W7_src : W7 m ρ c (Proc.devRef .tc main_v5) = Stages.src (m ((c : Thread nD τ).loc main_arg1)) :=
  (W7_of_ne m ρ c main_v5 (by decide)).trans (W6_src m ρ c)
theorem W7_dst : W7 m ρ c (Proc.devRef .tc main_v6) = Stages.dst (m ((c : Thread nD τ).loc main_arg1)) :=
  (W7_of_ne m ρ c main_v6 (by decide)).trans (W6_dst m ρ c)
theorem W7_wts : W7 m ρ c (Proc.devRef .tc main_v29) = Stages.wts (m ((c : Thread nD τ).loc main_arg1)) :=
  (W7_of_ne m ρ c main_v29 (by decide)).trans (W6_wts m ρ c)
theorem W7_arg5 : W7 m ρ c (Proc.devRef .tc main_arg5) = m ((c : Thread nD τ).loc main_arg5) :=
  (W7_of_ne m ρ c main_arg5 (by decide)).trans (W6_arg5 m ρ c)

/-- The result buffer: the second layer's aggregation of the second region's output array. -/
theorem W8_agg : W8 m ρ c (Proc.devRef .tc main_v66)
    = Stages.agg64h (W7 m ρ c (Proc.devRef .tc main_v49)) (m ((c : Thread nD τ).loc main_arg1)) (m ((c : Thread nD τ).loc main_arg5)) := by
  show StableHlo.after hostOps2 (W7 m ρ c) (Proc.devRef .tc main_v66) = _
  after_results_simp
  rw [W7_src, W7_dst, W7_wts, W7_arg5]
  rfl

end Cert.KernelIdeal.Fold

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.Rows.lean ====
/-
  The two matrix products, read off the pipelines.

  Each of the program's two kernel regions multiplies a tall matrix by a small one, ten thousand rows at a time: grid point `t`
  loads rows `10000·t … 10000·t + 9999` of the left operand and the whole right operand, forms their product into a zero
  accumulator, and writes the result to the same rows of the output. Over the extended reals the roundings to half precision on the
  way in and out are the identity, so what the body leaves is, entry by entry, `∑ₖ x[p, k] · w[k, q]` over the block's rows. A row
  block of a product is the product of the row block — entry `(p, q)` of the product only reads row `p` of the left operand — and
  the ten blocks tile the output, so after the region the output array is the whole product `x · w`, whatever the two operands
  held when the region was entered. Stated for both regions (a 128-column and a 64-column right operand), at any entry contents.
-/
import proofs.«116797_j44358422233325_2_alg».proof.Proof.Gen.KernelIdeal.Frame
import proofs.«116797_j44358422233325_2_alg».proof.Proof.LibDotCols
import Idealize.ShloMosaic.Lib.Pipeline.Value
import Idealize.ShloMosaic.Lib.ValueIdx

noncomputable section

open scoped BigOperators

namespace Cert.KernelIdeal.Rows

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The products as whole arrays -/

/-- `x · w` for a 100000 × 128 matrix and a 128 × 128 one: entry `(r, q)` is `∑ₖ x[r, k] · w[k, q]`. -/
def prod128 (x : S100000x128.Idx → EReal) (w : S128x128.Idx → EReal) : S100000x128.Idx → EReal :=
  fun i => ∑ k : Fin 128, x (ix2 (i 0) k) * w (ix2 k (i 1))

/-- `x · w` for a 100000 × 128 matrix and a 128 × 64 one. -/
def prod64 (x : S100000x128.Idx → EReal) (w : S128x64.Idx → EReal) : S100000x64.Idx → EReal :=
  fun i => ∑ k : Fin 128, x (ix2 (i 0) k) * w (ix2 k (i 1))

/-! ## One block's payload at an entry -/

theorem dims128 : dot_S10000x128_S128x128_S10000x128_1_0_0_1_n_n = DotDims.plain 10000 128 128 := rfl
theorem dims64 : dot_S10000x128_S128x64_S10000x64_1_0_0_1_n_n = DotDims.plain 10000 128 64 := rfl

/-- The first region's block: the roundings are the identity and the product into zero is the plain sum. -/
theorem pay128_apply (xb : FVec Ideal S10000x128 .f32) (wb : FVec Ideal S128x128 .f32) (p : Fin 10000) (q : Fin 128) :
    k0_pay1 (F := Ideal) xb wb (ix2 p q) = ∑ k : Fin 128, xb (ix2 p k) * wb (ix2 k q) := by
  unfold k0_pay1
  exact Cert.Lib.DotCols.matmul_cols_apply _ dims128 none _ _ p q

/-- The second region's block: as the first, after a reshape of the left block to its own shape. -/
theorem pay64_apply (xb : FVec Ideal S10000x128 .f32) (wb : FVec Ideal S128x64 .f32) (p : Fin 10000) (q : Fin 64) :
    k1_pay1 (F := Ideal) xb wb (ix2 p q) = ∑ k : Fin 128, xb (ix2 p k) * wb (ix2 k q) := by
  unfold k1_pay1
  rw [shapeCast_self]
  exact Cert.Lib.DotCols.matmul_cols_apply _ dims64 none _ _ p q

theorem hz : (![0, 0] : Fin 2 → Nat) = fun _ => 0 := funext fun a => by fin_cases a <;> rfl

end Cert.KernelIdeal.Rows

end
-- ==== Proof.Region0.lean ====
/-
  The first matrix product, as an array.

  After the first kernel region its output array holds, at row `r` and column `q`, the sum `∑ₖ x[r, k] · w[k, q]` of the two operand
  arrays as the region found them. Grid point `t` handles rows `10000·t … 10000·t + 9999`: its left block is those rows of `x`, its right
  block is all of `w`, and entry `(p, q)` of what it writes back is `∑ₖ x[10000·t + p, k] · w[k, q]` — the product's entry at the row the
  block's row `p` sits at. The ten blocks tile the hundred thousand rows, so the array is the product everywhere.
-/
import proofs.«116797_j44358422233325_2_alg».proof.Proof.Rows

noncomputable section

open scoped BigOperators

namespace Cert.KernelIdeal.Rows

open Idealize.ShloMosaic Idealize.ShloMosaic.TcCoe Idealize.ShloMosaic.ValueIdx Idealize.SL.Sem
open Idealize.ShloMosaic.Pipeline (Dat Cfg Window)
open Cert.KernelIdeal Cert.KernelIdeal.Gen

section Region0

variable (V : (c : Dev nD) → (b : Ref sig .tc) → Buf (Elt Ideal) ((c : Thread nD τ).loc b))

/-- Where the windows' blocks sit, decided over the ten grid points: the left operand's block moves down with the output's, one block
    per point; the right operand's block never moves; no block is offset along the columns. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the two operand arrays as the region finds them. -/
theorem flushed0 (c : Dev nD) (t : Fin cfg0.N) :
    (dat0 V c).flushed 2 t = ((cfg0.win 2).blk t).view.read (Elt Ideal) (prod128 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4⟩ := idx_facts0 t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = prod128 (V c main_arg0) (V c main_arg2) (((cfg0.win 2).blk t).view.emb (ix2 p q))
  refine (pay128_apply _ _ p q).trans ?_
  unfold prod128
  refine Finset.sum_congr rfl fun k _ => ?_
  -- the left block's entry (p, k) is the array's entry (block row + p, k); the right block is the whole right array
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have r0 : (iblk0 V c 0 t (ix2 p k) : EReal) = (V c main_arg0 (ix2 ((((cfg0.win 2).blk t).view.emb (ix2 p q)) 0) k) : EReal) := by
    show (V c main_arg0 (((cfg0.win 0).blk t).view.emb (ix2 p k)) : EReal) = _
    rw [h0]; rfl
  have r1 : (iblk0 V c 1 t (ix2 k q) : EReal) = (V c main_arg2 (ix2 k ((((cfg0.win 2).blk t).view.emb (ix2 p q)) 1)) : EReal) := by
    show (V c main_arg2 (((cfg0.win 1).blk t).view.emb (ix2 k q)) : EReal) = _
    rw [h1]; rfl
  exact congrArg₂ (fun a b : EReal => a * b) r0 r1

/-- An index of the output is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row `r` of the output lies in the block of the point whose block index is `r / 10000`: the ten blocks tile the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- AFTER THE FIRST REGION its output array is the whole product of its two operand arrays as the region found them. -/
theorem final0 (c : Dev nD) : (dat0 V c).arrAt 2 cfg0.N = prod128 (V c main_arg0) (V c main_arg2) :=
  (dat0 V c).arrAt_eq_of_cover 2 (prod128 (V c main_arg0) (V c main_arg2)) (fun t _ => flushed0 V c t) cover0

end Region0

end Cert.KernelIdeal.Rows

end
-- ==== Proof.Region1.lean ====
/-
  The second matrix product, as an array.

  The second kernel region is the first one at another width: its left operand is the hidden feature array (100000 × 128), its right
  operand the 128 × 64 weight matrix, and point `t` again handles rows `10000·t … 10000·t + 9999`. After the region its output array
  holds `∑ₖ h[r, k] · w[k, q]` at every row `r` and column `q`, for the two operand arrays as the region found them.
-/
import proofs.«116797_j44358422233325_2_alg».proof.Proof.Rows

noncomputable section

open scoped BigOperators

namespace Cert.KernelIdeal.Rows

open Idealize.ShloMosaic Idealize.ShloMosaic.TcCoe Idealize.ShloMosaic.ValueIdx Idealize.SL.Sem
open Idealize.ShloMosaic.Pipeline (Dat Cfg Window)
open Cert.KernelIdeal Cert.KernelIdeal.Gen

section Region1

variable (V : (c : Dev nD) → (b : Ref sig .tc) → Buf (Elt Ideal) ((c : Thread nD τ).loc b))

/-- Where the windows' blocks sit, decided over the ten grid points: the left operand's block moves down with the output's, one block
    per point; the right operand's block never moves; no block is offset along the columns. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every one of the ten row blocks is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole product of the two operand arrays as the region finds them. -/
theorem flushed1 (c : Dev nD) (t : Fin cfg1.N) :
    (dat1 V c).flushed 2 t = ((cfg1.win 2).blk t).view.read (Elt Ideal) (prod64 (V c main_v48) (V c main_arg4)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨e0, e1, e2, e3, e4⟩ := idx_facts1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q)
    = prod64 (V c main_v48) (V c main_arg4) (((cfg1.win 2).blk t).view.emb (ix2 p q))
  refine (pay64_apply _ _ p q).trans ?_
  unfold prod64
  refine Finset.sum_congr rfl fun k _ => ?_
  -- the left block's entry (p, k) is the array's entry (block row + p, k); the right block is the whole right array
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega
  have r0 : (iblk1 V c 0 t (ix2 p k) : EReal) = (V c main_v48 (ix2 ((((cfg1.win 2).blk t).view.emb (ix2 p q)) 0) k) : EReal) := by
    show (V c main_v48 (((cfg1.win 0).blk t).view.emb (ix2 p k)) : EReal) = _
    rw [h0]; rfl
  have r1 : (iblk1 V c 1 t (ix2 k q) : EReal) = (V c main_arg4 (ix2 k ((((cfg1.win 2).blk t).view.emb (ix2 p q)) 1)) : EReal) := by
    show (V c main_arg4 (((cfg1.win 1).blk t).view.emb (ix2 k q)) : EReal) = _
    rw [h1]; rfl
  exact congrArg₂ (fun a b : EReal => a * b) r0 r1

/-- An index of the output is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- Row `r` of the output lies in the block of the point whose block index is `r / 10000`: the ten blocks tile the array. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- AFTER THE SECOND REGION its output array is the whole product of its two operand arrays as the region found them. -/
theorem final1 (c : Dev nD) : (dat1 V c).arrAt 2 cfg1.N = prod64 (V c main_v48) (V c main_arg4) :=
  (dat1 V c).arrAt_eq_of_cover 2 (prod64 (V c main_v48) (V c main_arg4)) (fun t _ => flushed1 V c t) cover1

end Region1

end Cert.KernelIdeal.Rows

end
-- ==== Proof.Upper.lean ====
/-
  The result over the extended reals.

  The fold through the host stretches leaves the two regions' output arrays unread. Over the extended reals each is a plain matrix
  product: the first region's of the first two arguments, the second region's of the hidden feature array and the second weight
  matrix. Widening a half-precision array is the identity there, so the half-precision aggregations are the plain ones, and the
  result buffer ends at the two-layer network `Stages.gcn` over the two plain products, of the six arguments.
-/
import proofs.«116797_j44358422233325_2_alg».proof.Proof.Middle
import proofs.«116797_j44358422233325_2_alg».proof.Proof.Region0
import proofs.«116797_j44358422233325_2_alg».proof.Proof.Region1

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Rows

variable (m : (ℓ : Loc nD τ sig) → Buf (Elt Ideal) ℓ) (ρ : Dev nD → PrngReg) (c : Dev nD)

-- As before, the contents at a region's exit are used only through the generated equations about them.
attribute [local irreducible] W4 W7

/-- The first region's output array is the product of the first two arguments. -/
theorem W4_prod : W4 m ρ c (Proc.devRef .tc main_v30) = prod128 (m ((c : Thread nD τ).loc main_arg0)) (m ((c : Thread nD τ).loc main_arg2)) :=
  (W4_arr m ρ c 2).trans ((final0 (V3 m ρ) c).trans (congrArg₂ prod128
    (show V3 m ρ c main_arg0 = _ from W3_arg0 m ρ c) (show V3 m ρ c main_arg2 = _ from W3_arg2 m ρ c)))

/-- The hidden feature array: the plain first-layer aggregation of that product, negative entries set to zero. -/
theorem W6_hidden_real : W6 m ρ c (Proc.devRef .tc main_v48)
    = Stages.relu (Stages.agg128 (prod128 (m ((c : Thread nD τ).loc main_arg0)) (m ((c : Thread nD τ).loc main_arg2)))
        (m ((c : Thread nD τ).loc main_arg1)) (m ((c : Thread nD τ).loc main_arg3))) :=
  (W6_hidden m ρ c).trans (congrArg Stages.relu
    ((congrArg (fun h => Stages.agg128h (F := Ideal) h (m ((c : Thread nD τ).loc main_arg1)) (m ((c : Thread nD τ).loc main_arg3))) (W4_prod m ρ c)).trans
      (Stages.agg128h_eq _ _ _)))

/-- The second region's output array is the product of the hidden feature array and the second weight matrix. -/
theorem W7_prod : W7 m ρ c (Proc.devRef .tc main_v49)
    = prod64 (Stages.relu (Stages.agg128 (prod128 (m ((c : Thread nD τ).loc main_arg0)) (m ((c : Thread nD τ).loc main_arg2)))
        (m ((c : Thread nD τ).loc main_arg1)) (m ((c : Thread nD τ).loc main_arg3)))) (m ((c : Thread nD τ).loc main_arg4)) :=
  (W7_arr m ρ c 2).trans ((final1 (V6 m ρ) c).trans (congrArg₂ prod64
    (show V6 m ρ c main_v48 = _ from W6_hidden_real m ρ c) (show V6 m ρ c main_arg4 = _ from W6_arg4 m ρ c)))

/-- THE RESULT BUFFER after the last stretch: the two-layer network over the two plain products, of the six arguments. -/
theorem W8_result : W8 m ρ c (Proc.devRef .tc main_v66)
    = Stages.gcn (F := Ideal) prod128 prod64 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) :=
  (W8_agg m ρ c).trans
    ((congrArg (fun h => Stages.agg64h (F := Ideal) h (m ((c : Thread nD τ).loc main_arg1)) (m ((c : Thread nD τ).loc main_arg5))) (W7_prod m ρ c)).trans
      (Stages.agg64h_eq _ _ _))

end Cert.KernelIdeal.Fold

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«116797_j44358422233325_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RefSide.lean ====
/-
  The reference is the same network over the host's two matrix products.

  The reference program is one straight line of host operations, and its result is their composition applied to the six
  arguments. That composition is the stage functions' network `Stages.gcn` with the host's two `dot_general`s as its matrix
  products — the same operations in the same order, so the two terms are one by unfolding. Over the extended reals the host's
  product with "contract the left operand's columns with the right operand's rows" is the plain sum `∑ₖ l[p, k] · r[k, q]`, which
  is the product the kernel's two regions leave.
-/
import proofs.«116797_j44358422233325_2_alg».proof.Proof.RefRun
import proofs.«116797_j44358422233325_2_alg».proof.Proof.Stages
import proofs.«116797_j44358422233325_2_alg».proof.Proof.Rows
import proofs.«116797_j44358422233325_2_alg».proof.Proof.LibDotColsHost

noncomputable section

open scoped BigOperators

namespace Cert.Bridge

open Idealize.ShloMosaic Idealize.ShloMosaic.TcCoe Idealize.ShloMosaic.ValueIdx Idealize.SL.Sem
open Cert.KernelIdeal.Rows (prod128 prod64)

/-- The host's first product, of a 100000 × 128 and a 128 × 128 array. -/
abbrev hostProd128 {F : FTy → Type} [FloatOps F]
    (l : (⟨Cert.KernelIdeal.S100000x128, .f32⟩ : BufTy).Contents (Elt F)) (r : (⟨Cert.KernelIdeal.S128x128, .f32⟩ : BufTy).Contents (Elt F)) :
    (⟨Cert.KernelIdeal.S100000x128, .f32⟩ : BufTy).Contents (Elt F) :=
  Host.dotGeneral Cert.ReferenceIdeal.dot_S100000x128_S128x128_S100000x128_1_0_0_1_n_n none l r

/-- The host's second product, of a 100000 × 128 and a 128 × 64 array. -/
abbrev hostProd64 {F : FTy → Type} [FloatOps F]
    (l : (⟨Cert.KernelIdeal.S100000x128, .f32⟩ : BufTy).Contents (Elt F)) (r : (⟨Cert.KernelIdeal.S128x64, .f32⟩ : BufTy).Contents (Elt F)) :
    (⟨Cert.KernelIdeal.S100000x64, .f32⟩ : BufTy).Contents (Elt F) :=
  Host.dotGeneral Cert.ReferenceIdeal.dot_S100000x128_S128x64_S100000x64_1_0_0_1_n_n none l r

/-- The reference's result term is the network over the host's products, of its six arguments. -/
theorem ref_term {F : FTy → Type} [FloatOps F]
    (m' : (ℓ : Loc Cert.ReferenceIdeal.nD Cert.ReferenceIdeal.τ Cert.ReferenceIdeal.sig) → Buf (Elt F) ℓ) (c : Dev Cert.ReferenceIdeal.nD) :
    Cert.ReferenceIdeal.RunP.res_main_v64 m' c
      = Cert.KernelIdeal.Stages.gcn hostProd128 hostProd64
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := rfl

/-- Over the extended reals the host's first product is the plain product. -/
theorem hostProd128_eq : (hostProd128 (F := Ideal)) = prod128 := by
  funext l r i
  obtain ⟨p, q, rfl⟩ : ∃ (p : Fin 100000) (q : Fin 128), i = ix2 p q := ⟨i 0, i 1, eq_ix2 i⟩
  show _ = ∑ k : Fin 128, l (ix2 p k) * r (ix2 k q)
  exact Cert.Lib.DotColsHost.dotGeneral_cols_apply _ rfl none _ l r p q

/-- And the second. -/
theorem hostProd64_eq : (hostProd64 (F := Ideal)) = prod64 := by
  funext l r i
  obtain ⟨p, q, rfl⟩ : ∃ (p : Fin 100000) (q : Fin 64), i = ix2 p q := ⟨i 0, i 1, eq_ix2 i⟩
  show _ = ∑ k : Fin 128, l (ix2 p k) * r (ix2 k q)
  exact Cert.Lib.DotColsHost.dotGeneral_cols_apply _ rfl none _ l r p q

/-- So over the extended reals the reference's result is the network over the plain products, of its six arguments. -/
theorem ref_result
    (m' : (ℓ : Loc Cert.ReferenceIdeal.nD Cert.ReferenceIdeal.τ Cert.ReferenceIdeal.sig) → Buf (Elt Ideal) ℓ) (c : Dev Cert.ReferenceIdeal.nD) :
    Cert.ReferenceIdeal.RunP.res_main_v64 m' c
      = Cert.KernelIdeal.Stages.gcn (F := Ideal) prod128 prod64
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) :=
  (ref_term m' c).trans (congrArg₂
    (fun P₁ P₂ => Cert.KernelIdeal.Stages.gcn (F := Ideal) P₁ P₂
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)))
    hostProd128_eq hostProd64_eq)

end Cert.Bridge

end
-- ==== Proof.lean ====
/-
  A two-layer graph convolution: a kernel that does its two feature transforms in row blocks, against one that does them whole.

  Both programs take node features `x` (100000 × 128), an edge list, and two weight matrices with their biases, and compute
  `Â · relu(Â · (x W₁) + b₁) W₂ + b₂` in the order "transform, then aggregate": `Â` is the symmetrically normalised adjacency with self
  loops, applied by gathering source rows, scaling by the edge weight and scatter-adding into target rows. The reference forms the two
  products `x W₁` and `h W₂` with one host matrix product each. The kernel forms each in a pipelined region of ten grid points, ten
  thousand rows per point, rounding operands and result to half precision, and gathers from the half-precision array before widening.

  Over the extended reals the roundings and the widening are the identity and a matrix product into a zero accumulator is the plain sum
  `∑ₖ x[r, k] · w[k, q]`. Entry `(r, q)` of a product reads only row `r` of the left operand, so the ten row blocks the kernel writes are
  the ten row blocks of the whole product, and they tile it: each region leaves exactly the host's product (Region0, Region1 over Rows).
  Every other operation is the same on both sides, in the same order (Stages): the kernel's result buffer is the network over the plain
  products (Lower, Upper, over the run Whole), the reference's is the network over the host's products (RefSide), and these are one
  function of the six arguments. Nothing in the comparison needs the inputs finite: no sum is regrouped and no factor moved.

  The three frame claims are the generated frames (the reference's its run with the result dropped); the idealization rewrote nothing.
-/
import proofs.«116797_j44358422233325_2_alg».proof.Defs
import proofs.«116797_j44358422233325_2_alg».proof.Proof.Gen.Kernel
import proofs.«116797_j44358422233325_2_alg».proof.Proof.Gen.Kernel.Frame
import proofs.«116797_j44358422233325_2_alg».proof.Proof.Gen.KernelIdeal
import proofs.«116797_j44358422233325_2_alg».proof.Proof.Gen.KernelIdeal.Frame
import proofs.«116797_j44358422233325_2_alg».proof.Proof.Gen.ReferenceIdeal
import proofs.«116797_j44358422233325_2_alg».proof.Proof.Gen.Pre_finite_inputs
import proofs.«116797_j44358422233325_2_alg».proof.Proof.Whole
import proofs.«116797_j44358422233325_2_alg».proof.Proof.Upper
import proofs.«116797_j44358422233325_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both programs end with the network over the plain products in their result buffer, of arguments that agree. -/
theorem algebraic : Cert.algebraic_KernelIdeal_ReferenceIdeal := by
  intro m ρ m' ρ' _ hagree
  refine ⟨fun c => Cert.KernelIdeal.Stages.gcn (F := Ideal) Cert.KernelIdeal.Rows.prod128 Cert.KernelIdeal.Rows.prod64
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · -- the kernel: every buffer ends at the last boundary's contents; the result's are the network, the arguments' the launch memory
    exact (θ_run Cert.KernelIdeal.defs _ _).mono (fun r h c =>
      ⟨(h c _ (Cert.KernelIdeal.Gen.mem_uc Cert.KernelIdeal.main_v66 (by decide))).trans (Cert.KernelIdeal.Fold.W8_result m ρ c),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c),
       (h c _ (Cert.KernelIdeal.Gen.mem_uc Cert.KernelIdeal.main_arg4 (by decide))).trans (Cert.KernelIdeal.Gen.W8_main_arg4 m ρ c),
       (h c _ (Cert.KernelIdeal.Gen.mem_uc Cert.KernelIdeal.main_arg5 (by decide))).trans (Cert.KernelIdeal.Gen.W8_main_arg5 m ρ c)⟩)
      (Cert.KernelIdeal.Whole.run_all (F := Ideal) m ρ)
  · -- the reference: its result term is the same network, of arguments that agree with the kernel's
    refine (θ_run Cert.ReferenceIdeal.defs _ _).mono (fun _ h c => ⟨(h c).1.trans ((Cert.Bridge.ref_result m' c).trans ?_), (h c).2⟩)
      (Cert.ReferenceIdeal.RunP.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
